-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S512x512 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S8x512x1024 : Shape := ⟨3, ![8, 512, 1024]⟩
abbrev S8x1024 : Shape := ⟨2, ![8, 1024]⟩
abbrev S8x1024x4096 : Shape := ⟨3, ![8, 1024, 4096]⟩
abbrev S8x4096 : Shape := ⟨2, ![8, 4096]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S8x1024 .f32) (main_arg5 : FVec F S8x1024x4096 .f32) (main_arg6 : FVec F S8x4096 .f32) (main_v13 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  let main_v24 : FVec F S8x1024x4096 .f32 := Host.absf main_arg5
  let main_cst_8 : FVec F S_ .f32 := constant S_ .f32 0x7F800000#32
  let main_v25 : FVec F S8x1024x4096 .f32 := broadcastInDim S8x1024x4096 ![] bcast_S_S8x1024x4096 main_cst_8
  let main_v26 : IVec S8x1024x4096 1 := cmpf .olt main_v24 main_v25
  let main_c_9 : IVec S_ 1 := constantI S_ 1 1#1
  let main_v27 : IVec S_ 1 := (fun x v => Host.reduce IntOp.andi x v reducesTo_S8x1024x4096_S_d0_1_2 h_S_) main_v26 main_c_9
  let main_v28 : IVec S_ 1 := andi main_v23 main_v27
  let main_v29 : FVec F S8x4096 .f32 := Host.absf main_arg6
  let main_cst_10 : FVec F S_ .f32 := constant S_ .f32 0x7F800000#32
  let main_v30 : FVec F S8x4096 .f32 := broadcastInDim S8x4096 ![] bcast_S_S8x4096 main_cst_10
  let main_v31 : IVec S8x4096 1 := cmpf .olt main_v29 main_v30
  let main_c_11 : IVec S_ 1 := constantI S_ 1 1#1
  let main_v32 : IVec S_ 1 := (fun x v => Host.reduce IntOp.andi x v reducesTo_S8x4096_S_d0_1 h_S_) main_v31 main_c_11
  let main_v33 : IVec S_ 1 := andi main_v28 main_v32
  main_v33

def fn {F : FTy → Type} [FloatOps F] (main_arg0 : FVec F S32768x512 .f32) (main_arg1 : FVec F S8x512x1024 .f32) (main_arg2 : FVec F S8x1024 .f32) (main_arg3 : FVec F S8x1024 .f32) (main_arg4 : FVec F S8x1024 .f32) (main_arg5 : FVec F S8x1024x4096 .f32) (main_arg6 : FVec F S8x4096 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S8x512x1024 .f32 := Host.absf main_arg1
  let main_cst_0 : FVec F S_ .f32 := constant S_ .f32 0x7F800000#32
  let main_v5 : FVec F S8x512x1024 .f32 := broadcastInDim S8x512x1024 ![] bcast_S_S8x512x1024 main_cst_0
  let main_v6 : IVec S8x512x1024 1 := cmpf .olt main_v4 main_v5
  let main_c_1 : IVec S_ 1 := constantI S_ 1 1#1
  let main_v7 : IVec S_ 1 := (fun x v => Host.reduce IntOp.andi x v reducesTo_S8x512x1024_S_d0_1_2 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S8x1024 .f32 := Host.absf main_arg3
  let main_cst_4 : FVec F S_ .f32 := constant S_ .f32 0x7F800000#32
  let main_v15 : FVec F S8x1024 .f32 := broadcastInDim S8x1024 ![] bcast_S_S8x1024 main_cst_4
  let main_v16 : IVec S8x1024 1 := cmpf .olt main_v14 main_v15
  fn_part1 (F := F) main_arg4 main_arg5 main_arg6 main_v13 main_v16
-- ==== Kernel.lean ====
abbrev S32768x512 : Shape := ⟨2, ![32768, 512]⟩
abbrev S8x512x1024 : Shape := ⟨3, ![8, 512, 1024]⟩
abbrev S8x1024 : Shape := ⟨2, ![8, 1024]⟩
abbrev S8x1024x4096 : Shape := ⟨3, ![8, 1024, 4096]⟩
abbrev S8x4096 : Shape := ⟨2, ![8, 4096]⟩
abbrev S8x4096x512 : Shape := ⟨3, ![8, 4096, 512]⟩
abbrev S8x1x1024 : Shape := ⟨3, ![8, 1, 1024]⟩
abbrev S8x1x4096 : Shape := ⟨3, ![8, 1, 4096]⟩
abbrev S8x4096x4096 : Shape := ⟨3, ![8, 4096, 4096]⟩
abbrev S1x512x512 : Shape := ⟨3, ![1, 512, 512]⟩
abbrev S1x512x1024 : Shape := ⟨3, ![1, 512, 1024]⟩
abbrev S1x1x1024 : Shape := ⟨3, ![1, 1, 1024]⟩
abbrev S1x1024x4096 : Shape := ⟨3, ![1, 1024, 4096]⟩
abbrev S1x1x4096 : Shape := ⟨3, ![1, 1, 4096]⟩
abbrev S1x512x4096 : Shape := ⟨3, ![1, 512, 4096]⟩
abbrev S1024x4096 : Shape := ⟨2, ![1024, 4096]⟩
abbrev S512x512 : Shape := ⟨2, ![512, 512]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x4096 : Shape := ⟨2, ![512, 4096]⟩
abbrev S1x4096 : Shape := ⟨2, ![1, 4096]⟩
abbrev S32768x4096 : Shape := ⟨2, ![32768, 4096]⟩

abbrev nBuf : Space → Nat
  | .hbm => 14
  | .vmem => 16
  | .smem => 0
  | _ => 0

abbrev bufTy : (tb : Table) → Fin (tcTables nBuf tb) → BufTy
  | .hbm, ⟨0, _⟩ => ⟨S32768x512, .f32⟩
  | .hbm, ⟨1, _⟩ => ⟨S8x512x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024x4096, .f32⟩
  | .hbm, ⟨6, _⟩ => ⟨S8x4096, .f32⟩
  | .hbm, ⟨7, _⟩ => ⟨S8x4096x512, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x4096, .f32⟩
  | .hbm, ⟨12, _⟩ => ⟨S8x4096x4096, .f32⟩
  | .hbm, ⟨13, _⟩ => ⟨S32768x4096, .f32⟩
  | .local _ .vmem, ⟨0, _⟩ => ⟨S1x512x512, .f32⟩
  | .local _ .vmem, ⟨1, _⟩ => ⟨S1x512x512, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x512x4096, .f32⟩
  | .local _ .vmem, ⟨14, _⟩ => ⟨S1x512x4096, .f32⟩
  | .local _ .vmem, ⟨15, _⟩ => ⟨S1024x4096, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S32768x512_S8x4096x512 : S32768x512.ShapeCasts S8x4096x512
  bcast_S8x1024_S8x1x1024_0_2 : S8x1024.BroadcastsInDim S8x1x1024 (![0, 2] : Fin 2 → Fin S8x1x1024.rank)
  bcast_S8x4096_S8x1x4096_0_2 : S8x4096.BroadcastsInDim S8x1x4096 (![0, 2] : Fin 2 → Fin S8x1x4096.rank)
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  packedbf16_S1024x4096_S1024x4096_0_0 : (Rect.unit (s := S1024x4096) ![0, 0] S1024x4096.size inb_S1024x4096_S1024x4096_0_0).PackedRows (EltTy.packing .bf16)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S1x4096_S512x4096 : S1x4096.Broadcasts S512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  shapeCasts_S8x4096x4096_S32768x4096 : S8x4096x4096.ShapeCasts S32768x4096
  dot_S512x512_S512x1024_S512x1024_1_0_0_1_n_n_wf : DotDims.WF S512x512 S512x1024 S512x1024 [1] [0] [0] [1] [] []
  dot_S512x1024_S1024x4096_S512x4096_1_0_0_1_n_n_wf : DotDims.WF S512x1024 S1024x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x4096x512.size a
  hwx0_0 : ∀ i : grid0.Coords, EltTy.bits .f32 = 32 ∨ (Rect.block (s := S8x4096x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x512x1024.size a
  hwx0_1 : ∀ i : grid0.Coords, EltTy.bits .f32 = 32 ∨ (Rect.block (s := S8x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x1024.size a
  hwx0_3 : ∀ i : grid0.Coords, EltTy.bits .f32 = 32 ∨ (Rect.block (s := S8x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024x4096.size a ≤ S8x1024x4096.size a
  hwx0_5 : ∀ i : grid0.Coords, EltTy.bits .f32 = 32 ∨ (Rect.block (s := S8x1024x4096) S1x1024x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x4096.size a ≤ S8x1x4096.size a
  hwx0_6 : ∀ i : grid0.Coords, EltTy.bits .f32 = 32 ∨ (Rect.block (s := S8x1x4096) S1x1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x4096.size a ≤ S8x4096x4096.size a
  hwx0_7 : ∀ i : grid0.Coords, EltTy.bits .f32 = 32 ∨ (Rect.block (s := S8x4096x4096) S1x512x4096.size (cc0_transform_7 i) (hinb0_7 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf

abbrev win0_0 : Pipeline.Window sig grid0 :=
  Pipeline.Window.ofSpec (Memref.whole main_v0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1x4096.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x512x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x512 : Shape := ⟨2, ![32768, 512]⟩
abbrev S8x512x1024 : Shape := ⟨3, ![8, 512, 1024]⟩
abbrev S8x1024 : Shape := ⟨2, ![8, 1024]⟩
abbrev S8x1024x4096 : Shape := ⟨3, ![8, 1024, 4096]⟩
abbrev S8x4096 : Shape := ⟨2, ![8, 4096]⟩
abbrev S8x4096x512 : Shape := ⟨3, ![8, 4096, 512]⟩
abbrev S8x4096x1024 : Shape := ⟨3, ![8, 4096, 1024]⟩
abbrev S8x1x1024 : Shape := ⟨3, ![8, 1, 1024]⟩
abbrev S_ : Shape := ⟨0, ![]⟩
abbrev S8x4096x1 : Shape := ⟨3, ![8, 4096, 1]⟩
abbrev S8x4096x4096 : Shape := ⟨3, ![8, 4096, 4096]⟩
abbrev S8x1x4096 : Shape := ⟨3, ![8, 1, 4096]⟩
abbrev S32768x4096 : Shape := ⟨2, ![32768, 4096]⟩

abbrev nBuf : Space → Nat
  | .hbm => 55
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S8x512x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024x4096, .f32⟩
  | .hbm, ⟨6, _⟩ => ⟨S8x4096, .f32⟩
  | .hbm, ⟨7, _⟩ => ⟨S8x4096x512, .f32⟩
  | .hbm, ⟨8, _⟩ => ⟨S8x4096x1024, .f32⟩
  | .hbm, ⟨9, _⟩ => ⟨S8x1x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1, .f32⟩
  | .hbm, ⟨33, _⟩ => ⟨S8x4096x1024, .f32⟩
  | .hbm, ⟨34, _⟩ => ⟨S8x4096x1024, .f32⟩
  | .hbm, ⟨35, _⟩ => ⟨S8x1x1024, .f32⟩
  | .hbm, ⟨36, _⟩ => ⟨S8x4096x1024, .f32⟩
  | .hbm, ⟨37, _⟩ => ⟨S8x4096x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S_, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x4096, .f32⟩
  | .hbm, ⟨51, _⟩ => ⟨S8x1x4096, .f32⟩
  | .hbm, ⟨52, _⟩ => ⟨S8x4096x4096, .f32⟩
  | .hbm, ⟨53, _⟩ => ⟨S8x4096x4096, .f32⟩
  | .hbm, ⟨54, _⟩ => ⟨S32768x4096, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  shapeCasts_S32768x512_S8x4096x512 : S32768x512.ShapeCasts S8x4096x512
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S_S8x4096x1024 : S_.BroadcastsInDim S8x4096x1024 (![] : Fin 0 → Fin S8x4096x1024.rank)
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  shapeCasts_S8x4096x4096_S32768x4096 : S8x4096x4096.ShapeCasts S32768x4096
  dot_S8x4096x512_S8x512x1024_S8x4096x1024_2_1_1_2_0_0_wf : DotDims.WF S8x4096x512 S8x512x1024 S8x4096x1024 [2] [1] [1] [2] [0] [0]
  dot_S8x4096x1024_S8x1024x4096_S8x4096x4096_2_1_1_2_0_0_wf : DotDims.WF S8x4096x1024 S8x1024x4096 S8x4096x4096 [2] [1] [1] [2] [0] [0]

variable [Facts₀]

def dot_S8x4096x512_S8x512x1024_S8x4096x1024_2_1_1_2_0_0 : DotDims S8x4096x512 S8x512x1024 S8x4096x1024 where
  lhsContracting := [2]
  rhsContracting := [1]
  lhsNonContracting := [1]
  rhsNonContracting := [2]
  lhsBatch := [0]
  rhsBatch := [0]
  wf := dot_S8x4096x512_S8x512x1024_S8x4096x1024_2_1_1_2_0_0_wf
def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf

class Facts : Prop extends Facts₀ where

variable [Facts]
-- ==== Proof.LibFiniteEntries.lean ====
/-
  A true `jnp.all(jnp.abs(x) < inf)` says that every entry of `x` is a real number.

  On the extended reals `|v| = max v (-v)` is `⊤` at both infinities, and the pattern of `+inf` denotes `⊤`; so
  `|v| < +inf` holds exactly when `v` is neither infinity, that is, when `v` is the coercion of a real.  A host reduce
  by `and` over every axis that comes out `1` had a `1` at every index, so each entry passed that comparison.
  Stated for any shape of `f32` entries, in the spelling a printed finiteness precondition has: the comparison
  `olt` of `Host.absf x` against the rank-0 constant `0x7F800000` broadcast to the shape, reduced into rank 0.
-/
import Idealize.ShloMosaic.PureOps.Ideal.Laws
import Idealize.ShloMosaic.Lib.ReduceAll

noncomputable section

namespace Cert.Lib.FiniteEntries

open Idealize.ShloMosaic

/-- The pattern of `+inf` denotes the top of the extended reals. -/
theorem ofBits_inf : Ideal.ofBits .f32 0x7F800000#32 = ⊤ := by
  simp [Ideal.ofBits, Ideal.ieee]

/-- An extended real whose absolute value is below `+inf` is a real. -/
theorem real_of_abs_lt_inf (v : EReal) (h : Ideal.cmp .olt (max v (-v)) (Ideal.ofBits .f32 0x7F800000#32) = 1#1) :
    ∃ r : ℝ, v = (r : EReal) := by
  rw [ofBits_inf] at h
  induction v using EReal.rec with
  | bot => simp [Ideal.cmp] at h
  | top => simp [Ideal.cmp] at h
  | coe r => exact ⟨r, rfl⟩

/-- The rank-0 shape has one index. -/
instance : Subsingleton (⟨0, ![]⟩ : Shape).Idx := ⟨fun _ _ => funext fun d => d.elim0⟩

/-- If `jnp.all(jnp.abs(x) < inf)`, as a host program prints it, is `1`, every entry of `x` is a real. -/
theorem entries_real {s : Shape} {axes : List (Fin s.rank)}
    (hb : (⟨0, ![]⟩ : Shape).BroadcastsInDim s (![] : Fin 0 → Fin s.rank))
    (hr : s.ReducesTo axes ⟨0, ![]⟩) (hu : 0 < (⟨0, ![]⟩ : Shape).numel) (x : FVec Ideal s .f32)
    (j : (⟨0, ![]⟩ : Shape).Idx)
    (h : Host.reduce IntOp.andi
          (cmpf .olt (Host.absf x) (broadcastInDim s ![] hb (constant (F := Ideal) ⟨0, ![]⟩ .f32 0x7F800000#32)))
          (constantI ⟨0, ![]⟩ 1 1#1) hr hu j = 1#1)
    (i : s.Idx) : ∃ r : ℝ, x i = (r : EReal) :=
  real_of_abs_lt_inf (x i) (Host.reduce_andi_all _ _ hr hu j h i)

end Cert.Lib.FiniteEntries

end
-- ==== Proof.Finite.lean ====
/-
  The finiteness precondition, read back for the two arrays the comparison needs.

  The printed precondition is the conjunction of seven statements "every entry of this array has absolute value
  below +inf", one per argument array, each a reduce by "and" over all axes into a rank-0 result, joined by "and".
  If the conjunction is 1, each of its terms is 1; a term that is 1 says every entry of its array is a real number.
  Here: the terms of the first two arrays (the rows x and the first layer's weights W1).
-/
import proofs.«180762_j3642132267038_2_alg».proof.Pre_finite_inputs
import proofs.«180762_j3642132267038_2_alg».proof.Proof.Gen.Pre_finite_inputs
import proofs.«180762_j3642132267038_2_alg».proof.Proof.LibFiniteEntries
import Idealize.ShloMosaic.Lib.ReduceAll
import Idealize.ShloMosaic.Lib.ValueIdx

noncomputable section

namespace Cert.Finite

open Idealize.ShloMosaic Cert.Pre_finite_inputs

/-- If the finiteness precondition holds of the seven arrays, every entry of the first (the rows) and every entry of
    the second (the first layer's weights) is a real number. -/
theorem x_W1_real [Cert.Pre_finite_inputs.Facts]
    (a0 : FVec Ideal S32768x512 .f32) (a1 : FVec Ideal S8x512x1024 .f32)
    (a2 a3 a4 : FVec Ideal S8x1024 .f32) (a5 : FVec Ideal S8x1024x4096 .f32) (a6 : FVec Ideal S8x4096 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) := by
  have h0 := congrFun h ValueIdx.ix0
  -- the conjunction of seven terms is 1: peel the last five, keep the first two
  obtain ⟨h1, _⟩ := IntOp.andi_eq_one.1 h0
  obtain ⟨h2, _⟩ := IntOp.andi_eq_one.1 h1
  obtain ⟨h3, _⟩ := IntOp.andi_eq_one.1 h2
  obtain ⟨h4, _⟩ := IntOp.andi_eq_one.1 h3
  obtain ⟨h5, _⟩ := IntOp.andi_eq_one.1 h4
  obtain ⟨h6, h7⟩ := IntOp.andi_eq_one.1 h5
  exact ⟨Cert.Lib.FiniteEntries.entries_real _ _ _ a0 _ h6, Cert.Lib.FiniteEntries.entries_real _ _ _ a1 _ h7⟩

end Cert.Finite

end
-- ==== Proof.Spec.lean ====
/-
  The ensemble head as ONE function of its arrays, entry by entry, on the extended reals.

  For one row of one ensemble member: a dense layer `h = x · W1 + b1` over 512 inputs, the layer normalisation of the
  1024 hidden values (mean and variance by the exact quotient by 1024, the centred value times `rsqrt (var + ε)`, an
  affine map by `ln_w`, `ln_b`), the activation `a ↦ a · sigmoid a`, and a second dense layer `· W2 + b2` into 4096
  outputs. The two float literals (1024 and ε) stay the words both programs print; they are never evaluated.

  Also here: the one law the comparison needs. A product computed in three passes from a value and its rounding
  error, `a·b + a·(b − b) + (a − a)·b`, is the plain product when `a` and `b` are real numbers, because then
  `a − a = 0` and `b − b = 0`; at an infinity `a − a` is not `0`, which is why the inputs' finiteness is used.
-/
import Idealize.ShloMosaic.PureOps.Ideal
import Idealize.ShloMosaic.Lib.ValueIdx

noncomputable section

namespace Cert.Head

open Idealize.ShloMosaic Idealize.ShloMosaic.ValueIdx

/-- The first dense layer on one row: `∑ₑ x e · w e j + b j`. -/
def layer1 (xr : Fin 512 → EReal) (w : Fin 512 → Fin 1024 → EReal) (b : Fin 1024 → EReal) (j : Fin 1024) : EReal :=
  (∑ e : Fin 512, xr e * w e j) + b j

/-- The mean of 1024 values: their sum divided (exactly) by the word of `1024.0`. -/
def rowMean (h : Fin 1024 → EReal) : EReal :=
  Ideal.div (∑ j : Fin 1024, h j) (Ideal.ofBits .f32 0x44800000#32)

/-- A value less the mean of its row. -/
def centred (h : Fin 1024 → EReal) (j : Fin 1024) : EReal := h j - rowMean h

/-- The mean of the squared centred values. -/
def rowVar (h : Fin 1024 → EReal) : EReal := rowMean fun j => centred h j * centred h j

/-- Layer normalisation with its affine map: `(h j − μ) · rsqrt (σ² + ε) · ln_w j + ln_b j`. -/
def layerNorm (h lw lb : Fin 1024 → EReal) (j : Fin 1024) : EReal :=
  centred h j * Ideal.rsqrt (rowVar h + Ideal.ofBits .f32 0x3727C5AC#32) * lw j + lb j

/-- The activation `a · sigmoid a`. -/
def silu (a : EReal) : EReal := a * Ideal.logistic a

/-- The second dense layer on one row of activations: `∑ⱼ s j · w2 j v + b2 v`. -/
def layer2 (s : Fin 1024 → EReal) (w2 : Fin 1024 → Fin 4096 → EReal) (b2 : Fin 4096 → EReal) (v : Fin 4096) : EReal :=
  (∑ j : Fin 1024, s j * w2 j v) + b2 v

/-- One row through the whole head. -/
def headRow (xr : Fin 512 → EReal) (w : Fin 512 → Fin 1024 → EReal) (b lw lb : Fin 1024 → EReal)
    (w2 : Fin 1024 → Fin 4096 → EReal) (b2 : Fin 4096 → EReal) (v : Fin 4096) : EReal :=
  layer2 (fun j => silu (layerNorm (layer1 xr w b) lw lb j)) w2 b2 v

/-- The head over the member-batched arrays: member `p`, row `r` of its 4096, output `v`; the per-member vectors
    carry a unit middle axis. -/
def headAt (x : (⟨3, ![8, 4096, 512]⟩ : Shape).Idx → EReal) (W1 : (⟨3, ![8, 512, 1024]⟩ : Shape).Idx → EReal)
    (b1 lw lb : (⟨3, ![8, 1, 1024]⟩ : Shape).Idx → EReal) (W2 : (⟨3, ![8, 1024, 4096]⟩ : Shape).Idx → EReal)
    (b2 : (⟨3, ![8, 1, 4096]⟩ : Shape).Idx → EReal) (p : Fin 8) (r : Fin 4096) (v : Fin 4096) : EReal :=
  headRow (fun e => x (ix3 p r e)) (fun e j => W1 (ix3 p e j)) (fun j => b1 (ix3 p (0 : Fin 1) j))
    (fun j => lw (ix3 p (0 : Fin 1) j)) (fun j => lb (ix3 p (0 : Fin 1) j)) (fun j v => W2 (ix3 p j v))
    (fun v => b2 (ix3 p (0 : Fin 1) v)) v

/-- The whole result before the final reshape, as an array `[8, 4096, 4096]`. -/
def G3 (x : (⟨3, ![8, 4096, 512]⟩ : Shape).Idx → EReal) (W1 : (⟨3, ![8, 512, 1024]⟩ : Shape).Idx → EReal)
    (b1 lw lb : (⟨3, ![8, 1, 1024]⟩ : Shape).Idx → EReal) (W2 : (⟨3, ![8, 1024, 4096]⟩ : Shape).Idx → EReal)
    (b2 : (⟨3, ![8, 1, 4096]⟩ : Shape).Idx → EReal) : (⟨3, ![8, 4096, 4096]⟩ : Shape).Idx → EReal :=
  fun i => headAt x W1 b1 lw lb W2 b2 (i 0) (i 1) (i 2)

/-- A real number less itself is zero on the extended reals. -/
theorem sub_self_of_real {a : EReal} (h : ∃ r : ℝ, a = (r : EReal)) : a - a = 0 := by
  obtain ⟨r, rfl⟩ := h
  rw [← EReal.coe_sub, sub_self, EReal.coe_zero]

/-- The three-pass product of real operands is the plain product. -/
theorem threePass {n : ℕ} (a b : Fin n → EReal) (ha : ∀ k, ∃ r : ℝ, a k = (r : EReal)) (hb : ∀ k, ∃ r : ℝ, b k = (r : EReal)) :
    (∑ k : Fin n, a k * b k) + (∑ k : Fin n, a k * (b k - b k)) + (∑ k : Fin n, (a k - a k) * b k)
      = ∑ k : Fin n, a k * b k := by
  have h1 : (∑ k : Fin n, a k * (b k - b k)) = 0 :=
    Finset.sum_eq_zero fun k _ => by rw [sub_self_of_real (hb k), mul_zero]
  have h2 : (∑ k : Fin n, (a k - a k) * b k) = 0 :=
    Finset.sum_eq_zero fun k _ => by rw [sub_self_of_real (ha k), zero_mul]
  rw [h1, h2, add_zero, add_zero]

end Cert.Head

end
-- ==== Proof.Ref.lean ====
/-
  The reference's result as ONE function of its arrays.

  The printed reference computes the ensemble head in 41 array operations: a dense layer over 512 inputs with its
  bias, the layer normalisation of the 1024 hidden values (two sums over the last axis, each divided by 1024, the
  centred values times the reciprocal square root of the variance plus epsilon, an affine map), the activation
  a * (1 / (1 + exp (-a))), and a second dense layer with its bias into 4096 outputs. Read entry by entry, each
  operation takes its operands at coordinates computed from the result's coordinates; composing these readings along
  the program gives, at member p, row r and output v, exactly the entrywise head of the specification. The first and
  last operations (reshapes) and the four that give the per-member vectors a unit middle axis are kept as they are.
-/
import proofs.«180762_j3642132267038_2_alg».proof.Proof.Gen.ReferenceIdeal.Read
import proofs.«180762_j3642132267038_2_alg».proof.Proof.Spec

noncomputable section

namespace Cert.RefValue

open Cert.ReferenceIdeal Cert.ReferenceIdeal.Gen Cert.ReferenceIdeal.Read Idealize.ShloMosaic Idealize.ShloMosaic.ValueIdx Cert.Head

/-! ## The operand coordinates of each operation, at a result given by its coordinates -/

/-- First dense layer, left operand: row `(p, r)`, input `k`. -/
theorem lidx_v1 (p : Fin 8) (r : Fin 4096) (j : Fin 1024) (k : Fin 512) : lidx_main_v1 (ix3 p r j) k = ix3 p r k :=
  funext fun a => Fin.ext (by match a with | ⟨0, _⟩ => rfl | ⟨1, _⟩ => rfl | ⟨2, _⟩ => rfl)
/-- First dense layer, right operand: member `p`, input `k`, hidden `j`. -/
theorem ridx_v1 (p : Fin 8) (r : Fin 4096) (j : Fin 1024) (k : Fin 512) : ridx_main_v1 (ix3 p r j) k = ix3 p k j :=
  funext fun a => Fin.ext (by match a with | ⟨0, _⟩ => rfl | ⟨1, _⟩ => rfl | ⟨2, _⟩ => rfl)
/-- A per-member row of 1024 broadcast over the 4096 rows (first bias). -/
theorem idx_v3 (p : Fin 8) (r : Fin 4096) (j : Fin 1024) : idx_main_v3 (ix3 p r j) = ix3 p (0 : Fin 1) j :=
  funext fun a => Fin.ext (by match a with | ⟨0, _⟩ => rfl | ⟨1, _⟩ => rfl | ⟨2, _⟩ => rfl)
/-- The first sum over the hidden axis reads row `(p, r)` at `k`. -/
theorem idx_v5 (p : Fin 8) (r : Fin 4096) (k : Fin 1024) : idx_main_v5 (ix2 p r) k = ix3 p r k :=
  funext fun a => Fin.ext (by match a with | ⟨0, _⟩ => rfl | ⟨1, _⟩ => rfl | ⟨2, _⟩ => rfl)
/-- A unit last axis added to the row sums. -/
theorem idx_v6 (p : Fin 8) (r : Fin 4096) (z : Fin 1) : idx_main_v6 (ix3 p r z) = ix2 p r :=
  funext fun a => Fin.ext (by match a with | ⟨0, _⟩ => rfl | ⟨1, _⟩ => rfl)
/-- The row mean broadcast along the hidden axis. -/
theorem idx_v9 (p : Fin 8) (r : Fin 4096) (j : Fin 1024) : idx_main_v9 (ix3 p r j) = ix3 p r (0 : Fin 1) :=
  funext fun a => Fin.ext (by match a with | ⟨0, _⟩ => rfl | ⟨1, _⟩ => rfl | ⟨2, _⟩ => rfl)
/-- The second sum over the hidden axis reads row `(p, r)` at `k`. -/
theorem idx_v12 (p : Fin 8) (r : Fin 4096) (k : Fin 1024) : idx_main_v12 (ix2 p r) k = ix3 p r k :=
  funext fun a => Fin.ext (by match a with | ⟨0, _⟩ => rfl | ⟨1, _⟩ => rfl | ⟨2, _⟩ => rfl)
/-- A unit last axis added to the sums of squares. -/
theorem idx_v13 (p : Fin 8) (r : Fin 4096) (z : Fin 1) : idx_main_v13 (ix3 p r z) = ix2 p r :=
  funext fun a => Fin.ext (by match a with | ⟨0, _⟩ => rfl | ⟨1, _⟩ => rfl)
/-- The row mean broadcast along the hidden axis, second use. -/
theorem idx_v16 (p : Fin 8) (r : Fin 4096) (j : Fin 1024) : idx_main_v16 (ix3 p r j) = ix3 p r (0 : Fin 1) :=
  funext fun a => Fin.ext (by match a with | ⟨0, _⟩ => rfl | ⟨1, _⟩ => rfl | ⟨2, _⟩ => rfl)
/-- The reciprocal square root broadcast along the hidden axis. -/
theorem idx_v21 (p : Fin 8) (r : Fin 4096) (j : Fin 1024) : idx_main_v21 (ix3 p r j) = ix3 p r (0 : Fin 1) :=
  funext fun a => Fin.ext (by match a with | ⟨0, _⟩ => rfl | ⟨1, _⟩ => rfl | ⟨2, _⟩ => rfl)
/-- A per-member row of 1024 broadcast over the 4096 rows (normalisation weight). -/
theorem idx_v24 (p : Fin 8) (r : Fin 4096) (j : Fin 1024) : idx_main_v24 (ix3 p r j) = ix3 p (0 : Fin 1) j :=
  funext fun a => Fin.ext (by match a with | ⟨0, _⟩ => rfl | ⟨1, _⟩ => rfl | ⟨2, _⟩ => rfl)
/-- A per-member row of 1024 broadcast over the 4096 rows (normalisation bias). -/
theorem idx_v27 (p : Fin 8) (r : Fin 4096) (j : Fin 1024) : idx_main_v27 (ix3 p r j) = ix3 p (0 : Fin 1) j :=
  funext fun a => Fin.ext (by match a with | ⟨0, _⟩ => rfl | ⟨1, _⟩ => rfl | ⟨2, _⟩ => rfl)
/-- Second dense layer, left operand: row `(p, r)`, hidden `k`. -/
theorem lidx_v36 (p : Fin 8) (r : Fin 4096) (v : Fin 4096) (k : Fin 1024) : lidx_main_v36 (ix3 p r v) k = ix3 p r k :=
  funext fun a => Fin.ext (by match a with | ⟨0, _⟩ => rfl | ⟨1, _⟩ => rfl | ⟨2, _⟩ => rfl)
/-- Second dense layer, right operand: member `p`, hidden `k`, output `v`. -/
theorem ridx_v36 (p : Fin 8) (r : Fin 4096) (v : Fin 4096) (k : Fin 1024) : ridx_main_v36 (ix3 p r v) k = ix3 p k v :=
  funext fun a => Fin.ext (by match a with | ⟨0, _⟩ => rfl | ⟨1, _⟩ => rfl | ⟨2, _⟩ => rfl)
/-- A per-member row of 4096 broadcast over the 4096 rows (second bias). -/
theorem idx_v38 (p : Fin 8) (r : Fin 4096) (v : Fin 4096) : idx_main_v38 (ix3 p r v) = ix3 p (0 : Fin 1) v :=
  funext fun a => Fin.ext (by match a with | ⟨0, _⟩ => rfl | ⟨1, _⟩ => rfl | ⟨2, _⟩ => rfl)

/-- The word of `1.0` denotes the real number one. -/
theorem ofBits_one_f32 : Ideal.ofBits .f32 0x3F800000#32 = 1 := by
  -- sign 0, exponent 127, fraction 0: the value is 2 ^ 23 * 2 ^ (127 - 127 - 23)
  have h : ((8388608 : ℝ) * ((2 : ℝ) ^ 23)⁻¹ : ℝ) = 1 := by norm_num
  simp [Ideal.ofBits, Ideal.ieee]
  exact_mod_cast h

/-! ## The stages at coordinates -/

section Stages

variable (x0 : (⟨S32768x512, .f32⟩ : BufTy).Contents (Elt Ideal)) (x1 : (⟨S8x512x1024, .f32⟩ : BufTy).Contents (Elt Ideal))
  (x2 x3 x4 : (⟨S8x1024, .f32⟩ : BufTy).Contents (Elt Ideal)) (x5 : (⟨S8x1024x4096, .f32⟩ : BufTy).Contents (Elt Ideal))
  (x6 : (⟨S8x4096, .f32⟩ : BufTy).Contents (Elt Ideal))

/-- The hidden values of row `r` of member `p`: the first dense layer on the reshaped rows. -/
abbrev hid (p : Fin 8) (r : Fin 4096) : Fin 1024 → EReal :=
  layer1 (fun e => val_main_v0 (F := Ideal) x0 (ix3 p r e)) (fun e j => x1 (ix3 p e j))
    (fun j => val_main_v2 (F := Ideal) x2 (ix3 p (0 : Fin 1) j))

/-- The normalised values of row `r` of member `p`. -/
abbrev nrm (p : Fin 8) (r : Fin 4096) : Fin 1024 → EReal :=
  layerNorm (hid x0 x1 x2 p r) (fun j => val_main_v23 (F := Ideal) x3 (ix3 p (0 : Fin 1) j))
    (fun j => val_main_v26 (F := Ideal) x4 (ix3 p (0 : Fin 1) j))

/-- The first dense layer with its bias, entry `(p, r, j)`. -/
theorem v4_at (p : Fin 8) (r : Fin 4096) (j : Fin 1024) :
    val_main_v4 (F := Ideal) x0 x1 x2 (ix3 p r j) = hid x0 x1 x2 p r j := by
  rw [val_main_v4_apply, val_main_v1_apply, val_main_v3_apply, idx_v3]
  simp only [lidx_v1, ridx_v1]
  rfl

/-- The row mean: the sum of the hidden values divided by 1024. -/
theorem v8_at (p : Fin 8) (r : Fin 4096) (z : Fin 1) :
    val_main_v8 (F := Ideal) x0 x1 x2 (ix3 p r z) = rowMean (hid x0 x1 x2 p r) := by
  rw [val_main_v8_apply, val_main_v6_apply, val_main_v7_apply, val_main_cst_0_apply, idx_v6, val_main_v5_apply,
    val_main_cst_apply]
  simp only [idx_v5, v4_at]
  unfold rowMean
  simp only [Ideal.hostDivf_def, Ideal.ofBits_def, Ideal.ofBits_zero_f32, zero_add]

/-- The centred hidden values (first use, under the square). -/
theorem v10_at (p : Fin 8) (r : Fin 4096) (j : Fin 1024) :
    val_main_v10 (F := Ideal) x0 x1 x2 (ix3 p r j) = centred (hid x0 x1 x2 p r) j := by
  rw [val_main_v10_apply, val_main_v9_apply, idx_v9, v8_at, v4_at]
  rfl

/-- The row variance: the sum of the squared centred values divided by 1024. -/
theorem v15_at (p : Fin 8) (r : Fin 4096) (z : Fin 1) :
    val_main_v15 (F := Ideal) x0 x1 x2 (ix3 p r z) = rowVar (hid x0 x1 x2 p r) := by
  rw [val_main_v15_apply, val_main_v13_apply, val_main_v14_apply, val_main_cst_2_apply, idx_v13, val_main_v12_apply,
    val_main_cst_1_apply]
  simp only [idx_v12, val_main_v11_apply, v10_at]
  unfold rowVar rowMean
  simp only [Ideal.hostDivf_def, Ideal.mulf_def, Ideal.ofBits_def, Ideal.ofBits_zero_f32, zero_add]

/-- The centred hidden values (second use, under the scaling). -/
theorem v17_at (p : Fin 8) (r : Fin 4096) (j : Fin 1024) :
    val_main_v17 (F := Ideal) x0 x1 x2 (ix3 p r j) = centred (hid x0 x1 x2 p r) j := by
  rw [val_main_v17_apply, val_main_v16_apply, idx_v16, v8_at, v4_at]
  rfl

/-- The reciprocal square root of the variance plus epsilon. -/
theorem v20_at (p : Fin 8) (r : Fin 4096) (z : Fin 1) :
    val_main_v20 (F := Ideal) x0 x1 x2 (ix3 p r z)
      = Ideal.rsqrt (rowVar (hid x0 x1 x2 p r) + Ideal.ofBits .f32 0x3727C5AC#32) := by
  rw [val_main_v20_apply, val_main_v19_apply, val_main_v18_apply, val_main_cst_3_apply, v15_at]
  rfl

/-- The layer normalisation with its affine map, entry `(p, r, j)`. -/
theorem v28_at (p : Fin 8) (r : Fin 4096) (j : Fin 1024) :
    val_main_v28 (F := Ideal) x0 x1 x2 x3 x4 (ix3 p r j) = nrm x0 x1 x2 x3 x4 p r j := by
  rw [val_main_v28_apply, val_main_v25_apply, val_main_v22_apply, v17_at, val_main_v21_apply, idx_v21, v20_at,
    val_main_v24_apply, idx_v24, val_main_v27_apply, idx_v27]
  rfl

/-- The activation `a * (1 / (1 + exp (-a)))` of the normalised value. -/
theorem v35_at (p : Fin 8) (r : Fin 4096) (j : Fin 1024) :
    val_main_v35 (F := Ideal) x0 x1 x2 x3 x4 (ix3 p r j) = silu (nrm x0 x1 x2 x3 x4 p r j) := by
  rw [val_main_v35_apply, val_main_v34_apply, val_main_v33_apply, val_main_cst_5_apply, val_main_v32_apply,
    val_main_v31_apply, val_main_cst_4_apply, val_main_v30_apply, val_main_v29_apply, v28_at]
  unfold silu Ideal.logistic
  simp only [Ideal.mulf_def, Ideal.hostDivf_def, Ideal.addf_def, Ideal.hostUnary_exp_def, Ideal.hostNegf_def,
    Ideal.negf_def, Ideal.ofBits_def, ofBits_one_f32]

/-- The second dense layer with its bias, entry `(p, r, v)`: the head of the specification. -/
theorem v39_at (p : Fin 8) (r : Fin 4096) (v : Fin 4096) :
    val_main_v39 (F := Ideal) x0 x1 x2 x3 x4 x5 x6 (ix3 p r v)
      = headAt (val_main_v0 (F := Ideal) x0) x1 (val_main_v2 (F := Ideal) x2) (val_main_v23 (F := Ideal) x3)
          (val_main_v26 (F := Ideal) x4) x5 (val_main_v37 (F := Ideal) x6) p r v := by
  rw [val_main_v39_apply, val_main_v36_apply, val_main_v38_apply, idx_v38]
  simp only [lidx_v36, ridx_v36, v35_at]
  rfl

/-- The reference's result is the final reshape of the specification's array `[8, 4096, 4096]`, taken at the
    reshaped rows, the first layer's weights, the three per-member rows of 1024 and the one of 4096 with their unit
    middle axis, and the second layer's weights. -/
theorem result_eq :
    val_main_v40 (F := Ideal) x0 x1 x2 x3 x4 x5 x6
      = shapeCast S32768x4096
          (G3 (val_main_v0 (F := Ideal) x0) x1 (val_main_v2 (F := Ideal) x2) (val_main_v23 (F := Ideal) x3)
            (val_main_v26 (F := Ideal) x4) x5 (val_main_v37 (F := Ideal) x6))
          shapeCasts_S8x4096x4096_S32768x4096 := by
  unfold val_main_v40
  refine congrArg (fun y => shapeCast S32768x4096 y shapeCasts_S8x4096x4096_S32768x4096) ?_
  funext i
  obtain ⟨p, r, v, rfl⟩ : ∃ (p : Fin 8) (r : Fin 4096) (v : Fin 4096), i = ix3 p r v := ⟨i 0, i 1, i 2, eq_ix3 i⟩
  exact v39_at x0 x1 x2 x3 x4 x5 x6 p r v

end Stages

end Cert.RefValue

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.LibLastAxisFolds.lean ====
/-
  Folds along the LAST axis of a rank-2 array at the ideal values, in the form a kernel's own text takes.

  A kernel's `vector.multi_reduction` carries two facts besides its operand: that its float type is one the
  operation is defined at, and that its accumulator is the operation's neutral word. A printed kernel states the
  first as the disjunction itself and the second as an equation between the two literal words. The lemmas here take
  the two facts in exactly that spelling, for any extents, so they rewrite a kernel's value as it stands:

  * `rowsum_fn` / `rowmax_fn`: the reduction, as a function of the row, is the sum over the row / the fold of `max`
    over the row from minus infinity. They contain no index, so `rw` can replace every reduction of a value before
    the value is read at an entry, also the ones that end up under a sum or a fold;
  * `rowsum_apply` / `rowmax_apply`: the same at a row given by its coordinate.

  With them: a one-column matrix `[a, 1]` laid out as one row `[1, a]` read at `(u, i)` is the column at `(i, 0)`, the
  counterpart of a vector laid out as a row; and square root, exponential and sigmoid of a vector read at an index.
-/
import Idealize.ShloMosaic.PureOps.Ideal.Laws
import Idealize.ShloMosaic.Lib.ValueIdx
import Idealize.ShloMosaic.Lib.Pipeline.Value

noncomputable section

namespace Cert.Lib.LastAxisFolds

open Idealize.ShloMosaic Idealize.ShloMosaic.ValueIdx

/-- A sum along the last axis from zero, read at its row: the sum over the row. -/
theorem rowsum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the last axis from minus infinity, read at its row: the fold of `max` over the row. -/
theorem rowmax_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin b)).fold max (Ideal.ofBits .f32 0xFF800000#32) f) (funext fun k => ?_)
  exact congrArg src (funext fun d => Fin.ext (by match d with | ⟨0, _⟩ => rfl | ⟨1, _⟩ => rfl))

/-- The sum along the last axis as a function of the row. -/
theorem rowsum_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) :
    multiReduction .add [1] ⟨1, ![a]⟩ src 0x00000000#32 h hφ hacc = fun j => ∑ k : Fin b, src (ix2 (j 0) k) :=
  funext fun j => by
    rw [eq_ix1 j]
    exact rowsum_apply src h hφ hacc (j 0)

/-- The maximum along the last axis as a function of the row. -/
theorem rowmax_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) :
    multiReduction .maximumf [1] ⟨1, ![a]⟩ src 0xFF800000#32 h hφ hacc
      = fun j => (Finset.univ : Finset (Fin b)).fold max (Ideal.ofBits .f32 0xFF800000#32) (fun k => src (ix2 (j 0) k)) :=
  funext fun j => by
    rw [eq_ix1 j]
    exact rowmax_apply src h hφ hacc (j 0)

/-- A one-column matrix laid out as one row reads, at `(u, i)`, the column's entry in row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.mul_one, Nat.add_zero, Nat.zero_add])

/-- The square root of a vector read at an index. -/
theorem sqrt_apply {s : Shape} {φ : FTy} (a : FVec Ideal s φ) (i : s.Idx) : sqrt a i = Ideal.sqrt (a i) := rfl
/-- The exponential of a vector read at an index. -/
theorem exp_apply {s : Shape} {φ : FTy} (a : FVec Ideal s φ) (i : s.Idx) : exp a i = Ideal.exp (a i) := rfl
/-- The sigmoid of a vector read at an index. -/
theorem logistic_apply {s : Shape} {φ : FTy} (a : FVec Ideal s φ) (i : s.Idx) : logistic a i = Ideal.logistic (a i) := rfl

end Cert.Lib.LastAxisFolds

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.Body.lean ====
/-
  One tile of the kernel's body, read entry by entry on the extended reals.

  The body's arithmetic is a handful of named values, each a function of the tile's input blocks: the first dense
  layer (a three-pass product plus the bias row), its row mean, the centred values, the row variance, the column of
  epsilons, and the output tile (normalise, affine map, `a · sigmoid a`, second dense layer against the kept weights,
  plus the output bias row). Each is read here at an entry written by its coordinates, and the last lemma puts them
  together: with real entries in the tile of `x` and in the member's `W1`, the output tile at `(r, v)` is the
  specification's head of row `r` at output `v`.
-/
import proofs.«180762_j3642132267038_2_alg».proof.Proof.Gen.KernelIdeal.Skeleton
import proofs.«180762_j3642132267038_2_alg».proof.Proof.Spec
import proofs.«180762_j3642132267038_2_alg».proof.Proof.LibPlainMatmul
import proofs.«180762_j3642132267038_2_alg».proof.Proof.LibLastAxisFolds
import proofs.«180762_j3642132267038_2_alg».proof.Proof.LibColumnLayout
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Head
open Cert.Lib

/-- The first layer's product in the body's own spelling: `[512,512] · [512,1024]` into zero, at `(r, j)`. -/
theorem mm1_apply {φ₁ φ₂ : FTy} (A : FVec Ideal S512x512 φ₁) (B : FVec Ideal S512x1024 φ₂) (r : Fin 512) (j : Fin 1024) :
    matmul dot_S512x512_S512x1024_S512x1024_1_0_0_1_n_n none A B (constant S512x1024 .f32 0x00000000#32) (ix2 r j)
      = ∑ e : Fin 512, A (ix2 r e) * B (ix2 e j) :=
  PlainMatmul.matmul_zero_apply dot_S512x512_S512x1024_S512x1024_1_0_0_1_n_n rfl rfl rfl rfl rfl rfl none A B r j

/-- The second layer's product: `[512,1024] · [1024,4096]` into zero, at `(r, v)`. -/
theorem mm2_apply {φ₁ φ₂ : FTy} (A : FVec Ideal S512x1024 φ₁) (B : FVec Ideal S1024x4096 φ₂) (r : Fin 512) (v : Fin 4096) :
    matmul dot_S512x1024_S1024x4096_S512x4096_1_0_0_1_n_n none A B (constant S512x4096 .f32 0x00000000#32) (ix2 r v)
      = ∑ j : Fin 1024, A (ix2 r j) * B (ix2 j v) :=
  PlainMatmul.matmul_zero_apply dot_S512x1024_S1024x4096_S512x4096_1_0_0_1_n_n rfl rfl rfl rfl rfl rfl none A B r v

/-- The first dense layer of a tile at row `r`, hidden unit `j`. The body forms the product in three passes from each
    operand and its rounding error; the operands being real, the two error passes vanish and the plain product is left,
    to which the bias row is added. -/
theorem pay3_apply (x0 : Vec Ideal S1x512x512 .f32) (x1 : Vec Ideal S1x512x1024 .f32) (x2 : Vec Ideal S1x1x1024 .f32)
    (h0 : ∀ i, ∃ r : ℝ, x0 i = (r : EReal)) (h1 : ∀ i, ∃ r : ℝ, x1 i = (r : EReal)) (r : Fin 512) (j : Fin 1024) :
    k0_pay3 x0 x1 x2 (ix2 r j)
      = layer1 (fun e => x0 (ix3 (0 : Fin 1) r e)) (fun e j => x1 (ix3 (0 : Fin 1) e j))
          (fun j => x2 (ix3 (0 : Fin 1) (0 : Fin 1) j)) j := by
  unfold k0_pay3 layer1
  dsimp only
  have hX : ∀ e : Fin 512, shapeCast S512x512 x0 shapeCasts_S1x512x512_S512x512 (ix2 r e) = x0 (ix3 (0 : Fin 1) r e) :=
    fun e => shapeCast_1ab_ab_apply x0 _ r e
  have hW : ∀ e : Fin 512, shapeCast S512x1024 x1 shapeCasts_S1x512x1024_S512x1024 (ix2 e j) = x1 (ix3 (0 : Fin 1) e j) :=
    fun e => shapeCast_1ab_ab_apply x1 _ e j
  have hB : broadcastTo S512x1024 (shapeCast S1x1024 x2 shapeCasts_S1x1x1024_S1x1024) broadcasts_S1x1024_S512x1024 (ix2 r j)
      = x2 (ix3 (0 : Fin 1) (0 : Fin 1) j) :=
    (broadcastTo_1b_ab_apply _ _ r j).trans (shapeCast_1ab_ab_apply x2 _ (0 : Fin 1) j)
  rw [addf_apply, addf_apply, addf_apply, hB,
    mm1_apply, mm1_apply, mm1_apply]
  simp only [truncf_apply, subf_apply, hX, hW]
  rw [threePass (fun e => x0 (ix3 (0 : Fin 1) r e)) (fun e => x1 (ix3 (0 : Fin 1) e j)) (fun e => h0 _) (fun e => h1 _)]

/-- The body's row mean in its own spelling: the last-axis sum from zero, kept as a column, divided by the column of the
    word of `1024.0`; at row `r` it is the mean of the row. -/
theorem mean_apply (src : FVec Ideal S512x1024 .f32) (r : Fin 512) (u : Fin 1) :
    divf (shapeCast S512x1 (multiReduction .add [1] S512 src 0x00000000#32 reduces_S512x1024_S512 (.inl rfl) rfl) shapeCasts_S512_S512x1)
        (broadcast S512x1 (Scalar.ofBits .f32 0x44800000#32)) (ix2 r u)
      = rowMean (fun j => src (ix2 r j)) := by
  rw [divf_apply, ColumnLayout.shapeCast_a_a1_apply, LastAxisFolds.rowsum_apply]
  rfl

/-- The mean of a row of first-layer values. -/
theorem pay4_apply (x0 : Vec Ideal S1x512x512 .f32) (x1 : Vec Ideal S1x512x1024 .f32) (x2 : Vec Ideal S1x1x1024 .f32)
    (r : Fin 512) (u : Fin 1) :
    k0_pay4 x0 x1 x2 (ix2 r u) = rowMean (fun j => k0_pay3 x0 x1 x2 (ix2 r j)) := by
  unfold k0_pay4
  exact mean_apply _ r u

/-- A first-layer value less its row's mean. -/
theorem pay6_apply (x0 : Vec Ideal S1x512x512 .f32) (x1 : Vec Ideal S1x512x1024 .f32) (x2 : Vec Ideal S1x1x1024 .f32)
    (r : Fin 512) (j : Fin 1024) :
    k0_pay6 x0 x1 x2 (ix2 r j) = centred (fun j => k0_pay3 x0 x1 x2 (ix2 r j)) j := by
  unfold k0_pay6 centred
  dsimp only
  rw [subf_apply, ColumnLayout.broadcastTo_a1_ab_apply, pay4_apply]

/-- The variance of a row of first-layer values: the mean of the squared centred values. -/
theorem pay5_apply (x0 : Vec Ideal S1x512x512 .f32) (x1 : Vec Ideal S1x512x1024 .f32) (x2 : Vec Ideal S1x1x1024 .f32)
    (r : Fin 512) (u : Fin 1) :
    k0_pay5 x0 x1 x2 (ix2 r u) = rowVar (fun j => k0_pay3 x0 x1 x2 (ix2 r j)) := by
  unfold k0_pay5 rowVar
  dsimp only
  refine (mean_apply _ r u).trans (congrArg rowMean (funext fun j => ?_))
  unfold centred
  rw [mulf_apply, subf_apply, ColumnLayout.broadcastTo_a1_ab_apply, pay4_apply]

/-- The column of epsilons. -/
theorem pay7_apply (r : Fin 512) (u : Fin 1) :
    k0_pay7 (F := Ideal) (ix2 r u) = Ideal.ofBits .f32 0x3727C5AC#32 := rfl

/-- The weights kept between a member's tiles are the member's second-layer block, entry by entry (rounding to the
    narrow format is the identity on the extended reals). -/
theorem pay2_apply (x5 : Vec Ideal S1x1024x4096 .f32) (j : Fin 1024) (v : Fin 4096) :
    k0_pay2 x5 (ix2 j v) = x5 (ix3 (0 : Fin 1) j v) := by
  unfold k0_pay2
  rw [shapeCast_self, truncf_apply, shapeCast_1ab_ab_apply]

/-- The output tile at `(r, v)` from the normalisation's three ingredients (variance column, centred values, epsilon
    column), the two affine rows, the kept weights and the output bias row: normalise, activate, second dense layer. -/
theorem pay1_apply (v34 : FVec Ideal S512x1 .f32) (v36 : FVec Ideal S512x1024 .f32) (v37 : FVec Ideal S512x1 .f32)
    (v42 v46 : Vec Ideal S1x1x1024 .f32) (v53 : Vec Ideal S1024x4096 .bf16) (v55 : Vec Ideal S1x1x4096 .f32)
    (u : Fin 1) (r : Fin 512) (v : Fin 4096) :
    k0_pay1 v34 v36 v37 v42 v46 v53 v55 (ix3 u r v)
      = layer2 (fun j => silu (v36 (ix2 r j) * Ideal.rsqrt (v34 (ix2 r (0 : Fin 1)) + v37 (ix2 r (0 : Fin 1)))
            * v42 (ix3 (0 : Fin 1) (0 : Fin 1) j) + v46 (ix3 (0 : Fin 1) (0 : Fin 1) j)))
          (fun j v => v53 (ix2 j v)) (fun v => v55 (ix3 (0 : Fin 1) (0 : Fin 1) v)) v := by
  unfold k0_pay1 layer2
  dsimp only
  rw [shapeCast_ab_1ab_apply, addf_apply, mm2_apply, broadcastTo_1b_ab_apply, shapeCast_1ab_ab_apply]
  refine congrArg (· + v55 (ix3 (0 : Fin 1) (0 : Fin 1) v)) (Finset.sum_congr rfl fun j _ => ?_)
  refine congrArg (· * v53 (ix2 j v)) ?_
  rw [truncf_apply, mulf_apply, LastAxisFolds.logistic_apply, addf_apply, mulf_apply, mulf_apply,
    ColumnLayout.broadcastTo_a1_ab_apply, broadcastTo_1b_ab_apply, shapeCast_1ab_ab_apply, broadcastTo_1b_ab_apply,
    shapeCast_1ab_ab_apply]
  rfl

/-- ONE TILE, ONE ENTRY. From a tile's input blocks with real entries in the two first-layer operands, and whatever
    weights the kept buffer holds, the body's output at `(r, v)` is the head of row `r` at output `v`. -/
theorem tile_apply (x0 : Vec Ideal S1x512x512 .f32) (x1 : Vec Ideal S1x512x1024 .f32) (x2 x3 x4 : Vec Ideal S1x1x1024 .f32)
    (xs : Vec Ideal S1024x4096 .bf16) (x6 : Vec Ideal S1x1x4096 .f32)
    (h0 : ∀ i, ∃ r : ℝ, x0 i = (r : EReal)) (h1 : ∀ i, ∃ r : ℝ, x1 i = (r : EReal))
    (u : Fin 1) (r : Fin 512) (v : Fin 4096) :
    k0_pay1 (k0_pay5 x0 x1 x2) (k0_pay6 x0 x1 x2) k0_pay7 x3 x4 xs x6 (ix3 u r v)
      = headRow (fun e => x0 (ix3 (0 : Fin 1) r e)) (fun e j => x1 (ix3 (0 : Fin 1) e j))
          (fun j => x2 (ix3 (0 : Fin 1) (0 : Fin 1) j)) (fun j => x3 (ix3 (0 : Fin 1) (0 : Fin 1) j))
          (fun j => x4 (ix3 (0 : Fin 1) (0 : Fin 1) j)) (fun j v => xs (ix2 j v))
          (fun v => x6 (ix3 (0 : Fin 1) (0 : Fin 1) v)) v := by
  have hrow : (fun j => k0_pay3 x0 x1 x2 (ix2 r j))
      = layer1 (fun e => x0 (ix3 (0 : Fin 1) r e)) (fun e j => x1 (ix3 (0 : Fin 1) e j))
          (fun j => x2 (ix3 (0 : Fin 1) (0 : Fin 1) j)) :=
    funext fun j => pay3_apply x0 x1 x2 h0 h1 r j
  rw [pay1_apply]
  unfold headRow layerNorm
  refine congrArg (fun s => layer2 s (fun j v => xs (ix2 j v)) (fun v => x6 (ix3 (0 : Fin 1) (0 : Fin 1) v)) v)
    (funext fun j => ?_)
  rw [pay6_apply, pay5_apply, pay7_apply, hrow]

end Cert.KernelIdeal.Body

end
-- ==== Proof.Pieces.lean ====
/-
  What one grid point's body leaves behind, read as values.

  At a member's first batch tile the body first stores the member's second-layer weights, rounded to the narrow
  format, into the buffer it keeps between points, and then computes the tile's outputs reading that buffer back;
  at the other tiles it only reads the buffer as the point before left it. In both cases the output tile is ONE
  store covering the whole block, so what the block holds afterwards is that store's value: the body's arithmetic
  applied to the input blocks and to the kept weights.
-/
import proofs.«180762_j3642132267038_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a member's first tile the kept buffer ends holding the member's second-layer weights, rounded. -/
theorem kept_first (c : Dev nD) (i : grid0.Coords) (arg2 : Memref sig .tc .vmem S1x512x512 .f32) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x4096 .f32) (harg7 : arg7.IsWhole) (arg8 : Memref sig .tc .vmem S1x1x4096 .f32) (harg8 : arg8.IsWhole) (arg9 : Memref sig .tc .vmem S1x512x4096 .f32) (harg9 : arg9.IsWhole) (arg10 : Memref sig .tc .vmem S1024x4096 .bf16) (harg10 : arg10.IsWhole) (hc0 : cond0_0 i) (x0 : Vec F S1x512x512 .f32) (x1 : Vec F S1x512x1024 .f32) (x2 : Vec F S1x1x1024 .f32) (x3 : Vec F S1x1x1024 .f32) (x4 : Vec F S1x1x1024 .f32) (x5 : Vec F S1x1024x4096 .f32) (x6 : Vec F S1x1x4096 .f32) :
    sout0_A_0 c i arg2 harg2 arg3 harg3 arg4 harg4 arg5 harg5 arg6 harg6 arg7 harg7 arg8 harg8 arg9 harg9 arg10 harg10 hc0 x0 x1 x2 x3 x4 x5 x6 = k0_pay2 x5 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz2]
  simp only [View.readAt_eq_ld, harg7.read_unread, View.ld_unit_zero (S := S1x1024x4096) hz3]

/-- At a member's first tile the output block is the body's arithmetic on the input blocks and on the weights just
    stored (read back through the kept buffer). -/
theorem tile_first (c : Dev nD) (i : grid0.Coords) (arg2 : Memref sig .tc .vmem S1x512x512 .f32) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x4096 .f32) (harg7 : arg7.IsWhole) (arg8 : Memref sig .tc .vmem S1x1x4096 .f32) (harg8 : arg8.IsWhole) (arg9 : Memref sig .tc .vmem S1x512x4096 .f32) (harg9 : arg9.IsWhole) (arg10 : Memref sig .tc .vmem S1024x4096 .bf16) (harg10 : arg10.IsWhole) (hc0 : cond0_0 i) (x0 : Vec F S1x512x512 .f32) (x1 : Vec F S1x512x1024 .f32) (x2 : Vec F S1x1x1024 .f32) (x3 : Vec F S1x1x1024 .f32) (x4 : Vec F S1x1x1024 .f32) (x5 : Vec F S1x1024x4096 .f32) (x6 : Vec F S1x1x4096 .f32) :
    out0_A_7 c i arg2 harg2 arg3 harg3 arg4 harg4 arg5 harg5 arg6 harg6 arg7 harg7 arg8 harg8 arg9 harg9 arg10 harg10 hc0 x0 x1 x2 x3 x4 x5 x6
      = k0_pay1 (k0_pay5 x0 x1 x2) (k0_pay6 x0 x1 x2) k0_pay7 x3 x4 (k0_pay2 x5) x6 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz3, View.readCov_unit_zero (S := S1024x4096) _ hz2]
  simp only [View.readAt_eq_ld, harg2.read_unread, harg3.read_unread, harg4.read_unread, harg5.read_unread,
    harg6.read_unread, harg7.read_unread, harg8.read_unread, View.ld_unit_zero (S := S1x512x512) hz3, View.ld_unit_zero (S := S1x512x1024) hz3, View.ld_unit_zero (S := S1x1x1024) hz3, View.ld_unit_zero (S := S1x1024x4096) hz3, View.ld_unit_zero (S := S1x1x4096) hz3, View.ld_unit_zero (S := S1024x4096) hz2]

/-- At a later tile the output block is the same arithmetic on the input blocks and on what the kept buffer held. -/
theorem tile_later (c : Dev nD) (i : grid0.Coords) (arg2 : Memref sig .tc .vmem S1x512x512 .f32) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x4096 .f32) (harg7 : arg7.IsWhole) (arg8 : Memref sig .tc .vmem S1x1x4096 .f32) (harg8 : arg8.IsWhole) (arg9 : Memref sig .tc .vmem S1x512x4096 .f32) (harg9 : arg9.IsWhole) (arg10 : Memref sig .tc .vmem S1024x4096 .bf16) (harg10 : arg10.IsWhole) (hc0 : ¬cond0_0 i) (x0 : Vec F S1x512x512 .f32) (x1 : Vec F S1x512x1024 .f32) (x2 : Vec F S1x1x1024 .f32) (x3 : Vec F S1x1x1024 .f32) (x4 : Vec F S1x1x1024 .f32) (x5 : Vec F S1x1024x4096 .f32) (x6 : Vec F S1x1x4096 .f32) (xs0 : Vec F S1024x4096 .bf16) :
    out0_B_7 c i arg2 harg2 arg3 harg3 arg4 harg4 arg5 harg5 arg6 harg6 arg7 harg7 arg8 harg8 arg9 harg9 arg10 harg10 hc0 x0 x1 x2 x3 x4 x5 x6 xs0
      = k0_pay1 (k0_pay5 x0 x1 x2) (k0_pay6 x0 x1 x2) k0_pay7 x3 x4 xs0 x6 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero hz3]
  simp only [View.readAt_eq_ld, harg2.read_unread, harg3.read_unread, harg4.read_unread, harg5.read_unread,
    harg6.read_unread, harg8.read_unread, harg10.read_unread, View.ld_unit_zero (S := S1x512x512) hz3, View.ld_unit_zero (S := S1x512x1024) hz3, View.ld_unit_zero (S := S1x1x1024) hz3, View.ld_unit_zero (S := S1x1024x4096) hz3, View.ld_unit_zero (S := S1x1x4096) hz3, View.ld_unit_zero (S := S1024x4096) hz2]

end Cert.KernelIdeal.Pieces

end
-- ==== Proof.Blocks.lean ====
/-
  Where the grid's blocks sit in the arrays, and what the arrays hold when the grid starts.

  The grid has 64 points: point `t` works on ensemble member `t / 8` and on that member's batch tile `t % 8` (512 rows).
  Every per-member operand (the two weight matrices, the bias and normalisation rows) is the member's whole slice;
  the tile of `x` and the output tile are rows `(t % 8) · 512 … + 511` of the member. Each block read at coordinates
  is therefore the array read at `(t / 8, ·, ·)`, shifted along the rows for those two. The arrays the host wrote
  before the grid are the regrouping of `x` by member and the per-member vectors given a unit middle axis.
-/
import proofs.«180762_j3642132267038_2_alg».proof.Proof.Gen.KernelIdeal.Frame
import proofs.«180762_j3642132267038_2_alg».proof.Proof.Spec
import proofs.«180762_j3642132267038_2_alg».proof.Proof.Body
import proofs.«180762_j3642132267038_2_alg».proof.Proof.Pieces
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Head

variable (m : (ℓ : Loc nD τ sig) → Buf (Elt Ideal) ℓ) (ρ : Dev nD → PrngReg)

/-- Where each window's block sits at grid point `t`: the member is `t / 8`, the batch tile `t % 8`; only the tile
    of `x` and the output tile move along the member's rows. Decided once over the 64 points. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = 0)
    ∧ (win0_5.index t (0 : Fin 3) = t.val / 8 ∧ win0_5.index t (1 : Fin 3) = 0 ∧ win0_5.index t (2 : Fin 3) = 0)
    ∧ (win0_6.index t (0 : Fin 3) = t.val / 8 ∧ win0_6.index t (1 : Fin 3) = 0 ∧ win0_6.index t (2 : Fin 3) = 0)
    ∧ (win0_7.index t (0 : Fin 3) = t.val / 8 ∧ win0_7.index t (1 : Fin 3) = t.val % 8 ∧ win0_7.index t (2 : Fin 3) = 0) :=
  (by decide +kernel : ∀ t : Fin grid0.N, _)

/-- The tile of `x` at point `t`: rows `(t % 8) · 512 + r` of member `t / 8`. -/
theorem blk0_apply (c : Dev nD) (t : Fin cfg0.N) (r e : Fin 512) (p : Fin 8) (q : Fin 4096)
    (hp : p.val = t.val / 8) (hq : q.val = t.val % 8 * 512 + r.val) :
    iblk m c 0 t (ix3 (0 : Fin 1) r e) = V m c main_v0 (ix3 p q e) := by
  obtain ⟨h0, h1, h2⟩ := (idx_facts t).1
  unfold iblk
  rw [View.read_apply]
  show V m c main_v0 (((cfg0.win 0).blk t).view.emb (ix3 (0 : Fin 1) r e)) = V m c main_v0 (ix3 p q e)
  refine congrArg (V m c main_v0) (funext fun d => Fin.ext ?_)
  match d with
  | ⟨0, _⟩ => show win0_0.index t 0 * 1 + 1 * 0 = p.val; rw [h0, hp]; omega
  | ⟨1, _⟩ => show win0_0.index t 1 * 512 + 1 * r.val = q.val; rw [h1, hq]; omega
  | ⟨2, _⟩ => show win0_0.index t 2 * 512 + 1 * e.val = e.val; rw [h2]; omega

/-- The member's first-layer weights: the whole \`[512, 1024]\` matrix of member \`t / 8\`. -/
theorem blk1_apply (c : Dev nD) (t : Fin cfg0.N) (e : Fin 512) (j : Fin 1024) (p : Fin 8) (hp : p.val = t.val / 8) :
    iblk m c 1 t (ix3 (0 : Fin 1) e j) = V m c main_arg1 (ix3 p e j) := by
  obtain ⟨h0, h1, h2⟩ := (idx_facts t).2.1
  unfold iblk
  rw [View.read_apply]
  show V m c main_arg1 (((cfg0.win 1).blk t).view.emb (ix3 (0 : Fin 1) e j)) = V m c main_arg1 (ix3 p e j)
  refine congrArg (V m c main_arg1) (funext fun d => Fin.ext ?_)
  match d with
  | ⟨0, _⟩ => show win0_1.index t 0 * 1 + 1 * 0 = p.val; rw [h0, hp]; omega
  | ⟨1, _⟩ => show win0_1.index t 1 * 512 + 1 * e.val = e.val; rw [h1]; omega
  | ⟨2, _⟩ => show win0_1.index t 2 * 1024 + 1 * j.val = j.val; rw [h2]; omega

/-- The member's first-layer bias row. -/
theorem blk2_apply (c : Dev nD) (t : Fin cfg0.N) (z : Fin 1) (j : Fin 1024) (p : Fin 8) (hp : p.val = t.val / 8) :
    iblk m c 2 t (ix3 (0 : Fin 1) z j) = V m c main_v1 (ix3 p z j) := by
  obtain ⟨h0, h1, h2⟩ := (idx_facts t).2.2.1
  unfold iblk
  rw [View.read_apply]
  show V m c main_v1 (((cfg0.win 2).blk t).view.emb (ix3 (0 : Fin 1) z j)) = V m c main_v1 (ix3 p z j)
  refine congrArg (V m c main_v1) (funext fun d => Fin.ext ?_)
  match d with
  | ⟨0, _⟩ => show win0_2.index t 0 * 1 + 1 * 0 = p.val; rw [h0, hp]; omega
  | ⟨1, _⟩ => show win0_2.index t 1 * 1 + 1 * z.val = z.val; rw [h1]; omega
  | ⟨2, _⟩ => show win0_2.index t 2 * 1024 + 1 * j.val = j.val; rw [h2]; omega

/-- The member's normalisation scale row. -/
theorem blk3_apply (c : Dev nD) (t : Fin cfg0.N) (z : Fin 1) (j : Fin 1024) (p : Fin 8) (hp : p.val = t.val / 8) :
    iblk m c 3 t (ix3 (0 : Fin 1) z j) = V m c main_v2 (ix3 p z j) := by
  obtain ⟨h0, h1, h2⟩ := (idx_facts t).2.2.2.1
  unfold iblk
  rw [View.read_apply]
  show V m c main_v2 (((cfg0.win 3).blk t).view.emb (ix3 (0 : Fin 1) z j)) = V m c main_v2 (ix3 p z j)
  refine congrArg (V m c main_v2) (funext fun d => Fin.ext ?_)
  match d with
  | ⟨0, _⟩ => show win0_3.index t 0 * 1 + 1 * 0 = p.val; rw [h0, hp]; omega
  | ⟨1, _⟩ => show win0_3.index t 1 * 1 + 1 * z.val = z.val; rw [h1]; omega
  | ⟨2, _⟩ => show win0_3.index t 2 * 1024 + 1 * j.val = j.val; rw [h2]; omega

/-- The member's normalisation shift row. -/
theorem blk4_apply (c : Dev nD) (t : Fin cfg0.N) (z : Fin 1) (j : Fin 1024) (p : Fin 8) (hp : p.val = t.val / 8) :
    iblk m c 4 t (ix3 (0 : Fin 1) z j) = V m c main_v3 (ix3 p z j) := by
  obtain ⟨h0, h1, h2⟩ := (idx_facts t).2.2.2.2.1
  unfold iblk
  rw [View.read_apply]
  show V m c main_v3 (((cfg0.win 4).blk t).view.emb (ix3 (0 : Fin 1) z j)) = V m c main_v3 (ix3 p z j)
  refine congrArg (V m c main_v3) (funext fun d => Fin.ext ?_)
  match d with
  | ⟨0, _⟩ => show win0_4.index t 0 * 1 + 1 * 0 = p.val; rw [h0, hp]; omega
  | ⟨1, _⟩ => show win0_4.index t 1 * 1 + 1 * z.val = z.val; rw [h1]; omega
  | ⟨2, _⟩ => show win0_4.index t 2 * 1024 + 1 * j.val = j.val; rw [h2]; omega

/-- The member's second-layer weights: the whole \`[1024, 4096]\` matrix of member \`t / 8\`. -/
theorem blk5_apply (c : Dev nD) (t : Fin cfg0.N) (j : Fin 1024) (v : Fin 4096) (p : Fin 8) (hp : p.val = t.val / 8) :
    iblk m c 5 t (ix3 (0 : Fin 1) j v) = V m c main_arg5 (ix3 p j v) := by
  obtain ⟨h0, h1, h2⟩ := (idx_facts t).2.2.2.2.2.1
  unfold iblk
  rw [View.read_apply]
  show V m c main_arg5 (((cfg0.win 5).blk t).view.emb (ix3 (0 : Fin 1) j v)) = V m c main_arg5 (ix3 p j v)
  refine congrArg (V m c main_arg5) (funext fun d => Fin.ext ?_)
  match d with
  | ⟨0, _⟩ => show win0_5.index t 0 * 1 + 1 * 0 = p.val; rw [h0, hp]; omega
  | ⟨1, _⟩ => show win0_5.index t 1 * 1024 + 1 * j.val = j.val; rw [h1]; omega
  | ⟨2, _⟩ => show win0_5.index t 2 * 4096 + 1 * v.val = v.val; rw [h2]; omega

/-- The member's output bias row. -/
theorem blk6_apply (c : Dev nD) (t : Fin cfg0.N) (z : Fin 1) (v : Fin 4096) (p : Fin 8) (hp : p.val = t.val / 8) :
    iblk m c 6 t (ix3 (0 : Fin 1) z v) = V m c main_v4 (ix3 p z v) := by
  obtain ⟨h0, h1, h2⟩ := (idx_facts t).2.2.2.2.2.2.1
  unfold iblk
  rw [View.read_apply]
  show V m c main_v4 (((cfg0.win 6).blk t).view.emb (ix3 (0 : Fin 1) z v)) = V m c main_v4 (ix3 p z v)
  refine congrArg (V m c main_v4) (funext fun d => Fin.ext ?_)
  match d with
  | ⟨0, _⟩ => show win0_6.index t 0 * 1 + 1 * 0 = p.val; rw [h0, hp]; omega
  | ⟨1, _⟩ => show win0_6.index t 1 * 1 + 1 * z.val = z.val; rw [h1]; omega
  | ⟨2, _⟩ => show win0_6.index t 2 * 4096 + 1 * v.val = v.val; rw [h2]; omega

/-- Where the output tile of point `t` lands in the result: rows `(t % 8) · 512 + r` of member `t / 8`. -/
theorem emb7 (t : Fin cfg0.N) (u : Fin 1) (r : Fin 512) (v : Fin 4096) (p : Fin 8) (q : Fin 4096)
    (hp : p.val = t.val / 8) (hq : q.val = t.val % 8 * 512 + r.val) :
    ((cfg0.win 7).blk t).view.emb (ix3 u r v) = ix3 p q v := by
  obtain ⟨h0, h1, h2⟩ := (idx_facts t).2.2.2.2.2.2.2
  have hu : u.val = 0 := by omega
  refine funext fun d => Fin.ext ?_
  match d with
  | ⟨0, _⟩ => show win0_7.index t 0 * 1 + 1 * u.val = p.val; rw [h0, hp, hu]; omega
  | ⟨1, _⟩ => show win0_7.index t 1 * 512 + 1 * r.val = q.val; rw [h1, hq]; omega
  | ⟨2, _⟩ => show win0_7.index t 2 * 4096 + 1 * v.val = v.val; rw [h2]; omega

/-! ## What the region finds in the arrays the host wrote before it -/

/-- The rows of \`x\` regrouped by member. -/
theorem V_v0 (c : Dev nD) :
    (V m c main_v0 : S8x4096x512.Idx → EReal) = shapeCast S8x4096x512 (m ((c : Thread nD τ).loc main_arg0)) shapeCasts_S32768x512_S8x4096x512 := by
  show StableHlo.after hostOps0 (fun b => m (c, b)) (Proc.devRef .tc main_v0) = _
  after_results <;> rfl

/-- The first-layer biases with a unit middle axis. -/
theorem V_v1 (c : Dev nD) :
    (V m c main_v1 : S8x1x1024.Idx → EReal) = broadcastInDim S8x1x1024 ![0, 2] bcast_S8x1024_S8x1x1024_0_2 (m ((c : Thread nD τ).loc main_arg2)) := by
  show StableHlo.after hostOps0 (fun b => m (c, b)) (Proc.devRef .tc main_v1) = _
  after_results <;> rfl

/-- The normalisation scales with a unit middle axis. -/
theorem V_v2 (c : Dev nD) :
    (V m c main_v2 : S8x1x1024.Idx → EReal) = broadcastInDim S8x1x1024 ![0, 2] bcast_S8x1024_S8x1x1024_0_2 (m ((c : Thread nD τ).loc main_arg3)) := by
  show StableHlo.after hostOps0 (fun b => m (c, b)) (Proc.devRef .tc main_v2) = _
  after_results <;> rfl

/-- The normalisation shifts with a unit middle axis. -/
theorem V_v3 (c : Dev nD) :
    (V m c main_v3 : S8x1x1024.Idx → EReal) = broadcastInDim S8x1x1024 ![0, 2] bcast_S8x1024_S8x1x1024_0_2 (m ((c : Thread nD τ).loc main_arg4)) := by
  show StableHlo.after hostOps0 (fun b => m (c, b)) (Proc.devRef .tc main_v3) = _
  after_results <;> rfl

/-- The output biases with a unit middle axis. -/
theorem V_v4 (c : Dev nD) :
    (V m c main_v4 : S8x1x4096.Idx → EReal) = broadcastInDim S8x1x4096 ![0, 2] bcast_S8x4096_S8x1x4096_0_2 (m ((c : Thread nD τ).loc main_arg6)) := by
  show StableHlo.after hostOps0 (fun b => m (c, b)) (Proc.devRef .tc main_v4) = _
  after_results <;> rfl

end Cert.KernelIdeal.Blocks

end
-- ==== Proof.Tiles.lean ====
/-
  What the grid leaves, point by point.

  The result before the final reshape is the specification's head applied to the arrays as the grid finds them.
  Two facts are carried along the 64 points. First, after every point of member `p` the buffer kept between points
  holds member `p`'s second-layer weights: the member's first tile stores them, and the later tiles leave the buffer
  alone (an induction over the points; a later tile is never a member's first, so the point before it belongs to the
  same member). Second, with those weights in place, each point's output tile is the result's rows
  `(t % 8) · 512 … + 511` of member `t / 8`: the body's arithmetic on the point's blocks is the head of those rows.
  The second fact uses that `x` and `W1` hold real numbers.
-/
import proofs.«180762_j3642132267038_2_alg».proof.Proof.Gen.KernelIdeal.Frame
import proofs.«180762_j3642132267038_2_alg».proof.Proof.Spec
import proofs.«180762_j3642132267038_2_alg».proof.Proof.Body
import proofs.«180762_j3642132267038_2_alg».proof.Proof.Pieces
import proofs.«180762_j3642132267038_2_alg».proof.Proof.Blocks
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Tiles

open Cert.KernelIdeal Cert.KernelIdeal.Gen Cert.KernelIdeal.Blocks Idealize.ShloMosaic.ValueIdx Cert.Head

variable (m : (ℓ : Loc nD τ sig) → Buf (Elt Ideal) ℓ) (ρ : Dev nD → PrngReg)

/-- The result before the final reshape: the head of every row of every member, from the arrays as the grid finds
    them. -/
def result3 (c : Dev nD) : Buf (Elt Ideal) ((c : Thread nD τ).loc main_v5) :=
  G3 (V m c main_v0) (V m c main_arg1) (V m c main_v1) (V m c main_v2) (V m c main_v3) (V m c main_arg5) (V m c main_v4)

/-- After any point of member `p`, the kept buffer holds member `p`'s second-layer weights. -/
theorem kept_eq (c : Dev nD) : ∀ (n : ℕ) (hn : n < cfg0.N) (j : Fin 1024) (v : Fin 4096) (p : Fin 8), p.val = n / 8 →
    (outsAt0 m c n hn).2 (ix2 j v) = V m c main_arg5 (ix3 p j v) := by
  intro n
  induction n with
  | zero =>
    intro hn j v p hp
    rw [outsAt0_A m c ⟨0, hn⟩ rfl]
    dsimp only
    rw [Pieces.kept_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), Body.pay2_apply]
    exact blk5_apply m c ⟨0, hn⟩ j v p hp
  | succ k ih =>
    intro hn j v p hp
    by_cases h0 : (k + 1) % 8 = 0
    · rw [outsAt0_A m c ⟨k + 1, hn⟩ h0]
      dsimp only
      rw [Pieces.kept_first c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) (ms0_4 ⟨k + 1, hn⟩) (hs0_4 ⟨k + 1, hn⟩) (ms0_5 ⟨k + 1, hn⟩) (hs0_5 ⟨k + 1, hn⟩) (ms0_6 ⟨k + 1, hn⟩) (hs0_6 ⟨k + 1, hn⟩) (ms0_7 ⟨k + 1, hn⟩) (hs0_7 ⟨k + 1, hn⟩) scM0_0 (Memref.isWhole_whole _) ((hcond0_0 ⟨k + 1, hn⟩).mpr h0) (iblk m c 0 ⟨k + 1, hn⟩) (iblk m c 1 ⟨k + 1, hn⟩) (iblk m c 2 ⟨k + 1, hn⟩) (iblk m c 3 ⟨k + 1, hn⟩) (iblk m c 4 ⟨k + 1, hn⟩) (iblk m c 5 ⟨k + 1, hn⟩) (iblk m c 6 ⟨k + 1, hn⟩), Body.pay2_apply]
      exact blk5_apply m c ⟨k + 1, hn⟩ j v p hp
    · rw [outsAt0_B m c ⟨k + 1, hn⟩ h0]
      dsimp only
      unfold sout0_B_0
      exact ih _ j v p (by omega)

/-- A point's output tile, whatever buffer holds the member's second-layer weights: the result's rows of that tile. -/
theorem tile_at (c : Dev nD) (hx : ∀ i, ∃ r : ℝ, V m c main_v0 i = (r : EReal)) (hw : ∀ i, ∃ r : ℝ, V m c main_arg1 i = (r : EReal))
    (t : Fin cfg0.N) (xs : Vec Ideal S1024x4096 .bf16)
    (hxs : ∀ (j : Fin 1024) (v : Fin 4096) (p : Fin 8), p.val = t.val / 8 → xs (ix2 j v) = V m c main_arg5 (ix3 p j v))
    (u : Fin 1) (r : Fin 512) (v : Fin 4096) (p : Fin 8) (q : Fin 4096) (hp : p.val = t.val / 8) (hq : q.val = t.val % 8 * 512 + r.val) :
    k0_pay1 (k0_pay5 (iblk m c 0 t) (iblk m c 1 t) (iblk m c 2 t)) (k0_pay6 (iblk m c 0 t) (iblk m c 1 t) (iblk m c 2 t)) k0_pay7
        (iblk m c 3 t) (iblk m c 4 t) xs (iblk m c 6 t) (ix3 u r v)
      = result3 m c (ix3 p q v) := by
  have h0 : ∀ i, ∃ r : ℝ, iblk m c 0 t i = (r : EReal) := fun i => by unfold iblk; rw [View.read_apply]; exact hx _
  have h1 : ∀ i, ∃ r : ℝ, iblk m c 1 t i = (r : EReal) := fun i => by unfold iblk; rw [View.read_apply]; exact hw _
  refine (Body.tile_apply (iblk m c 0 t) (iblk m c 1 t) (iblk m c 2 t) (iblk m c 3 t) (iblk m c 4 t) xs (iblk m c 6 t) h0 h1 u r v).trans ?_
  have e0 : (fun e => iblk m c 0 t (ix3 (0 : Fin 1) r e)) = fun e => V m c main_v0 (ix3 p q e) :=
    funext fun e => blk0_apply m c t r e p q hp hq
  have e1 : (fun e j => iblk m c 1 t (ix3 (0 : Fin 1) e j)) = fun e j => V m c main_arg1 (ix3 p e j) :=
    funext fun e => funext fun j => blk1_apply m c t e j p hp
  have e2 : (fun j => iblk m c 2 t (ix3 (0 : Fin 1) (0 : Fin 1) j)) = fun j => V m c main_v1 (ix3 p (0 : Fin 1) j) :=
    funext fun j => blk2_apply m c t 0 j p hp
  have e3 : (fun j => iblk m c 3 t (ix3 (0 : Fin 1) (0 : Fin 1) j)) = fun j => V m c main_v2 (ix3 p (0 : Fin 1) j) :=
    funext fun j => blk3_apply m c t 0 j p hp
  have e4 : (fun j => iblk m c 4 t (ix3 (0 : Fin 1) (0 : Fin 1) j)) = fun j => V m c main_v3 (ix3 p (0 : Fin 1) j) :=
    funext fun j => blk4_apply m c t 0 j p hp
  have e5 : (fun j v => xs (ix2 j v)) = fun j v => V m c main_arg5 (ix3 p j v) :=
    funext fun j => funext fun v => hxs j v p hp
  have e6 : (fun v => iblk m c 6 t (ix3 (0 : Fin 1) (0 : Fin 1) v)) = fun v => V m c main_v4 (ix3 p (0 : Fin 1) v) :=
    funext fun v => blk6_apply m c t 0 v p hp
  rw [e0, e1, e2, e3, e4, e5, e6]
  rfl

/-- After point `t`, the output's staging buffer holds the result's rows of tile `t % 8` of member `t / 8`. -/
theorem tile_eq (c : Dev nD) (hx : ∀ i, ∃ r : ℝ, V m c main_v0 i = (r : EReal)) (hw : ∀ i, ∃ r : ℝ, V m c main_arg1 i = (r : EReal))
    (t : Fin cfg0.N) (u : Fin 1) (r : Fin 512) (v : Fin 4096) (p : Fin 8) (q : Fin 4096)
    (hp : p.val = t.val / 8) (hq : q.val = t.val % 8 * 512 + r.val) :
    (outsAt0 m c t.val t.isLt).1 (ix3 u r v) = result3 m c (ix3 p q v) := by
  by_cases h0 : t.val % 8 = 0
  · rw [outsAt0_A m c t h0]
    dsimp only
    rw [Pieces.tile_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)]
    exact tile_at m c hx hw t (k0_pay2 (iblk m c 5 t))
      (fun j v p hp => (Body.pay2_apply (iblk m c 5 t) j v).trans (blk5_apply m c t j v p hp)) u r v p q hp hq
  · rw [outsAt0_B m c t h0]
    dsimp only
    rw [Pieces.tile_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2]
    exact tile_at m c hx hw t _
      (fun j v p hp => kept_eq m c (t.val - 1) _ j v p (by omega)) u r v p q hp hq

end Cert.KernelIdeal.Tiles

end
-- ==== Proof.Result.lean ====
/-
  The kernel's run, read: its result array ends holding the final reshape of the head of every row.

  Each grid point writes its output tile back to rows `(t % 8) · 512 … + 511` of member `t / 8` of an array
  `[8, 4096, 4096]`; the tile is the block of the result there, and the 64 tiles cover the array (row `b` of member
  `p` lies in tile `b / 512`, written by point `8 p + b / 512`). So after the grid the array holds the result, and the
  one host operation after the grid regroups it into `[32768, 4096]`. The argument arrays end as they started.
-/
import proofs.«180762_j3642132267038_2_alg».proof.Proof.Gen.KernelIdeal.Frame
import proofs.«180762_j3642132267038_2_alg».proof.Proof.Spec
import proofs.«180762_j3642132267038_2_alg».proof.Proof.Body
import proofs.«180762_j3642132267038_2_alg».proof.Proof.Pieces
import proofs.«180762_j3642132267038_2_alg».proof.Proof.Blocks
import proofs.«180762_j3642132267038_2_alg».proof.Proof.Tiles
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Blocks Cert.KernelIdeal.Tiles Idealize.ShloMosaic.ValueIdx Cert.Head

variable (m : (ℓ : Loc nD τ sig) → Buf (Elt Ideal) ℓ) (ρ : Dev nD → PrngReg)

/-- What point `t` writes back is the block of the result at its place. -/
theorem flushed_eq (c : Dev nD) (hx : ∀ i, ∃ r : ℝ, V m c main_v0 i = (r : EReal)) (hw : ∀ i, ∃ r : ℝ, V m c main_arg1 i = (r : EReal))
    (t : Fin cfg0.N) (hf : (cfg0.win 7).flush t = true) :
    (dats m 0 c).flushed 7 t = ((cfg0.win 7).blk t).view.read (Elt Ideal) (result3 m c) := by
  show (cfg0.win 7).cut (grid0.coords t) ((dats m 0 c).after 7 t) = _
  rw [after0_7]
  funext y
  obtain ⟨u, r, v, rfl⟩ : ∃ (u : Fin 1) (r : Fin 512) (v : Fin 4096), y = ix3 u r v := ⟨y 0, y 1, y 2, eq_ix3 y⟩
  have hN : t.val < 64 := lt_of_lt_of_eq t.isLt (show cfg0.N = 64 from N_0)
  have hr : r.val < 512 := r.isLt
  rw [View.read_apply, emb7 t u r v ⟨t.val / 8, by omega⟩ ⟨t.val % 8 * 512 + r.val, by omega⟩ rfl rfl]
  exact tile_eq m c hx hw t u r v _ _ rfl rfl

/-- Every entry of the result lies in the block of some point: row `b` of member `p` in the tile `b / 512` of that
    member, which is point `8 p + b / 512`. -/
theorem cover (c : Dev nD) (i : ((cfg0.win 7).arr.view.loc (c.tc : Thread nD τ)).2.ty.Idx) :
    ∃ t : Fin cfg0.N, (cfg0.win 7).flush t = true ∧ i ∈ ((cfg0.win 7).blk t).view.set := by
  have h0 : (i 0 : ℕ) < 8 := (i 0).isLt
  have h1 : (i 1 : ℕ) < 4096 := (i 1).isLt
  have h2 : (i 2 : ℕ) < 4096 := (i 2).isLt
  have hN : cfg0.N = 64 := N_0
  obtain ⟨t, ht⟩ : ∃ t : Fin cfg0.N, t.val = (i 0 : ℕ) * 8 + (i 1 : ℕ) / 512 := ⟨⟨(i 0 : ℕ) * 8 + (i 1 : ℕ) / 512, by rw [hN]; omega⟩, rfl⟩
  obtain ⟨e0, e1, e2⟩ := (idx_facts t).2.2.2.2.2.2.2
  refine ⟨t, flush0_7 t, ?_⟩
  show i ∈ ((View.whole main_v5).slice (win0_7.rect t)).set
  rw [View.set_slice_whole, Rect.mem_set_unit]
  intro a
  match a with
  | ⟨0, _⟩ =>
    show win0_7.index t 0 * 1 ≤ (i 0 : ℕ) ∧ (i 0 : ℕ) < win0_7.index t 0 * 1 + 1
    rw [e0, ht]; omega
  | ⟨1, _⟩ =>
    show win0_7.index t 1 * 512 ≤ (i 1 : ℕ) ∧ (i 1 : ℕ) < win0_7.index t 1 * 512 + 512
    rw [e1, ht]; omega
  | ⟨2, _⟩ =>
    show win0_7.index t 2 * 4096 ≤ (i 2 : ℕ) ∧ (i 2 : ℕ) < win0_7.index t 2 * 4096 + 4096
    rw [e2]; omega

/-- So the array the grid writes ends holding the result. -/
theorem final (c : Dev nD) (hx : ∀ i, ∃ r : ℝ, V m c main_v0 i = (r : EReal)) (hw : ∀ i, ∃ r : ℝ, V m c main_arg1 i = (r : EReal)) :
    (dats m 0 c).arrAt 7 cfg0.N = result3 m c :=
  (dats m 0 c).arrAt_eq_of_cover 7 (result3 m c) (fun t hf => flushed_eq m c hx hw t hf) (cover c)

/-- The host's regrouping after the grid reads the array the grid wrote. -/
theorem tail_eq (c : Dev nD) (hx : ∀ i, ∃ r : ℝ, V m c main_v0 i = (r : EReal)) (hw : ∀ i, ∃ r : ℝ, V m c main_arg1 i = (r : EReal)) :
    Pipeline.afterTail₀ cfgs (dats m) 0 (V0 m) [hostOps1] c main_v6
      = shapeCast S32768x4096 (result3 m c) shapeCasts_S8x4096x4096_S32768x4096 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = result3 m c :=
    (Pipeline.withArrays_arr spec0 launch0.win.arr_inj c _ _ 7).trans (final m c hx hw)
  rw [e]
  rfl

/-- THE RUN. From any memory whose `x` (regrouped) and `W1` hold real numbers: every weakly fair execution ends,
    with the result array at the regrouped head and the seven argument arrays unchanged. -/
theorem run (hx : ∀ c i, ∃ r : ℝ, V m c main_v0 i = (r : EReal)) (hw : ∀ c i, ∃ r : ℝ, V m c main_arg1 i = (r : EReal)) :
    θ_run defs (onTc (τ := τ) (main (F := Ideal))) ⟨m, fun _ => 0, ρ⟩ (fun r => ∀ c : Dev nD,
      r.2.mem ((c.tc : Thread nD τ).loc main_v6) = shapeCast S32768x4096 (result3 m c) shapeCasts_S8x4096x4096_S32768x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v6 (Pipeline.mem_restRefs_of main_v6 (by decide) (by decide))).trans (tail_eq m c (hx c) (hw c)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩) (run_main m ρ)

end Cert.KernelIdeal.Result

end
-- ==== Proof.lean ====
/-
  The certificate of the ensemble head: a gridded kernel against its plain reference, on the extended reals.

  The kernel runs eight independent small networks (dense layer 512 → 1024, layer normalisation, `a · sigmoid a`,
  dense layer 1024 → 4096), member `p` on rows `4096 p … 4096 p + 4095` of `x`, one grid point per member and per
  tile of 512 rows. It forms the first product in three narrow-format passes, from each operand and its rounding
  error, and keeps each member's second-layer weights, rounded once, in a buffer carried across the member's tiles.
  On the extended reals a change of float format is the identity, so a rounding error is `a − a`, which is `0` for a
  real `a`: with `x` and `W1` real (the precondition) the three passes are the plain product, and the kernel's
  result is, row by row, the head of the specification (Proof/Spec.lean) — which is what the reference computes
  (Proof/Ref.lean). Both programs regroup the rows by member first and back last, by the same reshapes.

    frame_Kernel, frame_KernelIdeal — the generated frames.
    frame_ReferenceIdeal — the reference's generated run with its result dropped.
    preserves_Kernel_KernelIdeal — the idealisation's two rewrites, a narrow-format round trip removed from each
      first-layer operand: each is its rule's statement.
    algebraic_KernelIdeal_ReferenceIdeal — the kernel's run ends with its result at the regrouped head of the arrays
      as the grid finds them (Proof/Result.lean, over Proof/Tiles.lean, Proof/Blocks.lean, Proof/Body.lean,
      Proof/Pieces.lean); the reference's ends at the same function of arguments that agree.
-/
import proofs.«180762_j3642132267038_2_alg».proof.Defs
import proofs.«180762_j3642132267038_2_alg».proof.Proof.Gen.Kernel
import proofs.«180762_j3642132267038_2_alg».proof.Proof.Gen.Kernel.Skeleton
import proofs.«180762_j3642132267038_2_alg».proof.Proof.Gen.Kernel.Launch
import proofs.«180762_j3642132267038_2_alg».proof.Proof.Gen.Kernel.Points
import proofs.«180762_j3642132267038_2_alg».proof.Proof.Gen.Kernel.Frame
import proofs.«180762_j3642132267038_2_alg».proof.Proof.Gen.KernelIdeal
import proofs.«180762_j3642132267038_2_alg».proof.Proof.Gen.KernelIdeal.Skeleton
import proofs.«180762_j3642132267038_2_alg».proof.Proof.Gen.KernelIdeal.Launch
import proofs.«180762_j3642132267038_2_alg».proof.Proof.Gen.KernelIdeal.Points
import proofs.«180762_j3642132267038_2_alg».proof.Proof.Gen.KernelIdeal.Frame
import proofs.«180762_j3642132267038_2_alg».proof.Proof.Gen.ReferenceIdeal
import proofs.«180762_j3642132267038_2_alg».proof.Proof.Gen.ReferenceIdeal.Run
import proofs.«180762_j3642132267038_2_alg».proof.Proof.Gen.ReferenceIdeal.Read
import proofs.«180762_j3642132267038_2_alg».proof.Proof.Gen.Pre_finite_inputs
import proofs.«180762_j3642132267038_2_alg».proof.Proof.Finite
import proofs.«180762_j3642132267038_2_alg».proof.Proof.Ref
import proofs.«180762_j3642132267038_2_alg».proof.Proof.Result
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two removed round trips through the narrow format, each its rule's statement at the operand's shape. -/
theorem preserves : Cert.preserves_Kernel_KernelIdeal :=
  ⟨IdealRules.truncf_extf.statement _ .f32 .bf16, IdealRules.truncf_extf.statement _ .f32 .bf16⟩

/-- Both runs end at the regrouped head of the argument arrays: the kernel's because every tile is the head of its
    rows when `x` and `W1` are real, the reference's entry by entry. -/
theorem algebraic : Cert.algebraic_KernelIdeal_ReferenceIdeal := by
  intro m ρ m' ρ' hpre hagree
  have hfin := fun c : Dev Cert.KernelIdeal.nD => Cert.Finite.x_W1_real _ _ _ _ _ _ _ (hpre c)
  have hx : ∀ (c : Dev Cert.KernelIdeal.nD) i,
      ∃ r : ℝ, Cert.KernelIdeal.Gen.V m c Cert.KernelIdeal.main_v0 i = (r : EReal) := by
    intro c i
    rw [Cert.KernelIdeal.Blocks.V_v0 m c]
    unfold shapeCast
    exact (hfin c).1 _
  have hw : ∀ (c : Dev Cert.KernelIdeal.nD) i,
      ∃ r : ℝ, Cert.KernelIdeal.Gen.V m c Cert.KernelIdeal.main_arg1 i = (r : EReal) := by
    intro c i
    rw [Cert.KernelIdeal.Gen.V_main_arg1 m c]
    exact (hfin c).2 i
  refine ⟨_, Cert.KernelIdeal.Result.run m ρ hx hw, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v40_eq, Cert.RefValue.result_eq, a0, a1, a2, a3, a4, a5, a6]
  unfold Cert.KernelIdeal.Tiles.result3
  rw [Cert.KernelIdeal.Blocks.V_v0 m c, Cert.KernelIdeal.Gen.V_main_arg1 m c, Cert.KernelIdeal.Blocks.V_v1 m c,
    Cert.KernelIdeal.Blocks.V_v2 m c, Cert.KernelIdeal.Blocks.V_v3 m c, Cert.KernelIdeal.Gen.V_main_arg5 m c,
    Cert.KernelIdeal.Blocks.V_v4 m c]
  rfl

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
